-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S100000 : Shape := ⟨1, ![100000]⟩
abbrev S256x64 : Shape := ⟨2, ![256, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : IVec S100000 32) (main_arg3 : FVec F S256x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x256 : Shape := ⟨2, ![100000, 256]⟩
abbrev S2x3200000 : Shape := ⟨2, ![2, 3200000]⟩
abbrev S100000 : Shape := ⟨1, ![100000]⟩
abbrev S256x64 : Shape := ⟨2, ![256, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x256 : Shape := ⟨2, ![10000, 256]⟩
abbrev S10000x64 : Shape := ⟨2, ![10000, 64]⟩
abbrev S3300000x64 : Shape := ⟨2, ![3300000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S1x2 : Shape := ⟨2, ![1, 2]⟩
abbrev S128x2 : Shape := ⟨2, ![128, 2]⟩

abbrev nBuf : Space → Nat
  | .hbm => 106
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S128x64, .f32⟩
  | .hbm, ⟨89, _⟩ => ⟨S100000x1, .i32⟩
  | .hbm, ⟨90, _⟩ => ⟨S128x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S128, .f32⟩
  | .hbm, ⟨95, _⟩ => ⟨S100000x1, .i32⟩
  | .hbm, ⟨96, _⟩ => ⟨S128, .f32⟩
  | .hbm, ⟨97, _⟩ => ⟨S_, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128x1, .f32⟩
  | .hbm, ⟨102, _⟩ => ⟨S128x64, .f32⟩
  | .hbm, ⟨103, _⟩ => ⟨S128x64, .f32⟩
  | .hbm, ⟨104, _⟩ => ⟨S1x2, .f32⟩
  | .hbm, ⟨105, _⟩ => ⟨S128x2, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S128x64, .f32⟩
  | .local _ .vmem, ⟨21, _⟩ => ⟨S64x2, .f32⟩
  | .local _ .vmem, ⟨22, _⟩ => ⟨S1x2, .f32⟩
  | .local _ .vmem, ⟨23, _⟩ => ⟨S128x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_call1_v0 : Ref sig .tc := ⟨.hbm, 98, rfl⟩
abbrev main_call1_v1 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x64_S10000x64_1_0_0_1_n_n_wf : DotDims.WF S10000x256 S256x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x2_S128x2_1_0_0_1_n_n_wf : DotDims.WF S128x64 S64x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S128x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S128x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S100000 : Shape := ⟨1, ![100000]⟩
abbrev S256x64 : Shape := ⟨2, ![256, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S128x2 : Shape := ⟨2, ![128, 2]⟩
abbrev S1x2 : Shape := ⟨2, ![1, 2]⟩

abbrev nBuf : Space → Nat
  | .hbm => 116
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S128x64, .f32⟩
  | .hbm, ⟨97, _⟩ => ⟨S100000x1, .i32⟩
  | .hbm, ⟨98, _⟩ => ⟨S128x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S128, .f32⟩
  | .hbm, ⟨103, _⟩ => ⟨S100000x1, .i32⟩
  | .hbm, ⟨104, _⟩ => ⟨S128, .f32⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S128x1, .f32⟩
  | .hbm, ⟨110, _⟩ => ⟨S128x64, .f32⟩
  | .hbm, ⟨111, _⟩ => ⟨S128x64, .f32⟩
  | .hbm, ⟨112, _⟩ => ⟨S128x2, .f32⟩
  | .hbm, ⟨113, _⟩ => ⟨S1x2, .f32⟩
  | .hbm, ⟨114, _⟩ => ⟨S128x2, .f32⟩
  | .hbm, ⟨115, _⟩ => ⟨S128x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_call3_v0 : Ref sig .tc := ⟨.hbm, 106, rfl⟩
abbrev main_call3_v1 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x2_S128x2_1_0_0_1_n_n_wf : DotDims.WF S128x64 S64x2 S128x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

class Facts : Prop extends Facts₀ where

variable [Facts]
-- ==== Proof.KRun.lean ====
/-
  The idealized kernel's run, with its result named.

  The program is five pipelined regions among stretches of host operations. Its memory at each boundary is a fold from the
  launch memory: a host stretch applies its operations, a region replaces its arrays by what its write-backs leave and keeps
  every other buffer. Every weakly fair execution terminates, nothing faulting, with every unscoped buffer holding the last
  fold's contents; in particular the result array holds the last region's output array, and each argument array what it was
  launched with.
-/
import proofs.«167483_j16303695856042_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last fold's contents: the launch over the program's segments, the final thread
    state (all unscoped buffers held at those contents) read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core needs a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      -- each core starts holding its unscoped buffers at the launch memory, its generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      -- holding every unscoped buffer at the last contents, beside the final state, reads those contents off its memory
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

/-- The run with the result array named: it ends holding the last region's output array as the fold leaves it, and every
    argument array ends as launched. -/
theorem run_result : θ_run defs (onTc (τ := τ) (main (F := F))) ⟨m, fun _ => 0, ρ⟩ (fun r => ∀ c : Dev nD,
      r.2.mem ((c.tc : Thread nD τ).loc main_v74) = W13 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v74 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)
    (run_all m ρ)

end Cert.KernelIdeal.Result

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Kept.lean ====
/-
  Buffers that travel across the program's boundaries unchanged.

  A stretch of host operations leaves every buffer none of its operations writes as it found it, and a region leaves every
  buffer that is not one of its arrays as it found it. So an argument array still holds its launch contents at the boundary
  where it is first read, and the edges' sources, destinations and weights reach both layers' aggregates as the first
  stretches left them.
-/
import proofs.«167483_j16303695856042_1_alg».proof.Proof.Gen.KernelIdeal.Frame
import proofs.«167483_j16303695856042_1_alg».proof.Proof.LibHostKeeps
import Idealize.ShloMosaic.Lib.StableHlo.Run
import Idealize.ShloMosaic.PureOps.Ideal

set_option maxRecDepth 16384

noncomputable section

namespace Cert.KernelIdeal.Kept

open Cert.KernelIdeal Cert.KernelIdeal.Facts₀ Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Buffers that travel across boundaries unchanged -/

/-- Argument 0's array is untouched up to boundary 3: no host operation writes it and no region before has it among its arrays. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- Argument 3's array is untouched up to boundary 3: no host operation writes it and no region before has it among its arrays. -/
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- Argument 4's array is untouched up to boundary 4: no host operation writes it and no region before has it among its arrays. -/
theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- Argument 5's array is untouched up to boundary 6: no host operation writes it and no region before has it among its arrays. -/
theorem arg5_at6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- Argument 6's array is untouched up to boundary 7: no host operation writes it and no region before has it among its arrays. -/
theorem arg6_at7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- Argument 2's array is untouched up to boundary 9: no host operation writes it and no region before has it among its arrays. -/
theorem arg2_at9 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := by host_keeps hostOps3
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by host_keeps hostOps1
    _ = W3 m ρ c (Proc.devRef .tc main_arg2) := W4_of_ne m ρ c main_arg2 (by decide)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- Argument 8's array is untouched up to boundary 9: no host operation writes it and no region before has it among its arrays. -/
theorem arg8_at9 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

/-- Argument 7's array is untouched up to boundary 12: no host operation writes it and no region before has it among its arrays. -/
theorem arg7_at12 (c : Dev nD) : W12 m ρ c (Proc.devRef .tc main_arg7) = m ((c : Thread nD τ).loc main_arg7) :=
  calc W12 m ρ c (Proc.devRef .tc main_arg7)
    _ = W11 m ρ c (Proc.devRef .tc main_arg7) := by host_keeps hostOps4_2
    _ = W10 m ρ c (Proc.devRef .tc main_arg7) := by host_keeps hostOps4_1
    _ = W9 m ρ c (Proc.devRef .tc main_arg7) := by host_keeps hostOps4
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-- The edges' sources pass the first region. -/
theorem v3_at4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The edges' destinations pass the first region. -/
theorem v6_at4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The edges' weights pass the first region. -/
theorem v29_at4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The edges' sources reach the second layer's aggregate as the first stretches left them. -/
theorem v3_at7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

/-- The edges' destinations reach the second layer's aggregate as the first stretches left them. -/
theorem v6_at7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

/-- The edges' weights reach the second layer's aggregate as the first stretches left them. -/
theorem v29_at7 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

end Cert.KernelIdeal.Kept

end
-- ==== Proof.Stage.lean ====
/-
  The host stages around the regions, as functions of whole arrays.

  The graph: the edge list with one self-loop per node appended (source and destination vectors of 3300000 entries); a node's
  degree is the number of edges that end at it; the normaliser of a node is 1/sqrt(degree) where the degree is positive and 0
  elsewhere; an edge's weight is the product of its two ends' normalisers. An index below zero is wrapped by the number of
  nodes before a gather reads with it.
  A layer's aggregate: gather the rows of the linear map's output at the edges' sources, scale each by its edge's weight, and
  add it into the row of the edge's destination, starting from zeros.
  The pool: add the rows of each graph together and divide by the number of the graph's nodes, at least one.
  Each is written as the operations compose, so that reading a stretch of host operations lands on it.
-/
import proofs.«167483_j16303695856042_1_alg».proof.Proof.Gen.KernelIdeal

noncomputable section

namespace Cert.KernelIdeal.Stage

open Cert.KernelIdeal Cert.KernelIdeal.Facts₀ Idealize.ShloMosaic

variable {F : FTy → Type} [FloatOps F]

/-- Row `r` of the edge index with the nodes' own indices appended: the edges' sources (r = 0) or destinations (r = 1). -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node's degree: one added at the destination of every edge, from zeros. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- The degree normaliser: 1/sqrt(degree) where the degree is positive, 0 elsewhere. -/
def normaliser (dst : (⟨S3300000, .i32⟩ : BufTy).Contents (Elt F)) : (⟨S100000, .f32⟩ : BufTy).Contents (Elt F) :=
  select (cmpf (F := F) .ogt (degree dst) (broadcastInDim S100000 ![] bcast_S_S100000 (constant S_ .f32 0x00000000#32))) (Host.rsqrt (degree dst)) (broadcastInDim S100000 ![] bcast_S_S100000 (id (constant S_ .f32 0x00000000#32)))

/-- An index vector as a column of start indices, an index below zero wrapped by the number of nodes. -/
def wrapped (ix : (⟨S3300000, .i32⟩ : BufTy).Contents (Elt F)) : (⟨S3300000x1, .i32⟩ : BufTy).Contents (Elt F) :=
  broadcastInDim S3300000x1 ![0] bcast_S3300000_S3300000x1_0 (select (cmpi .slt ix (broadcastInDim S3300000 ![] bcast_S_S3300000 (constantI S_ 32 0#32))) (addi ix (broadcastInDim S3300000 ![] bcast_S_S3300000 (constantI S_ 32 100000#32))) ix)

/-- An edge's weight: the product of its two ends' normalisers. -/
def edgeWeight (src dst : (⟨S3300000, .i32⟩ : BufTy).Contents (Elt F)) : (⟨S3300000, .f32⟩ : BufTy).Contents (Elt F) :=
  mulf (Host.gather gather_S100000_S3300000x1_S3300000_n_0_n_n_0_1_1 (normaliser dst) (wrapped src)) (Host.gather gather_S100000_S3300000x1_S3300000_n_0_n_n_0_1_1 (normaliser dst) (wrapped dst))

/-- A layer's aggregate: the rows gathered at the edges' sources, each scaled by its edge's weight, added at the edges'
    destinations from zeros. -/
def aggregate (h : (⟨S100000x64, .f32⟩ : BufTy).Contents (Elt F)) (src dst : (⟨S3300000, .i32⟩ : BufTy).Contents (Elt F))
    (wt : (⟨S3300000, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 dst) (mulf (Host.gather gather_S100000x64_S3300000x1_S3300000x64_1_0_n_n_0_1_164 h (wrapped src)) (broadcastInDim S3300000x64 ![0, 1] bcast_S3300000x1_S3300000x64_0_1 (broadcastInDim S3300000x1 ![0] bcast_S3300000_S3300000x1_0 wt)))

/-- The mean pool: each graph's rows added together, divided by the number of its nodes, at least one. -/
def pooled (h : (⟨S100000x64, .f32⟩ : BufTy).Contents (Elt F)) (batch : (⟨S100000, .i32⟩ : BufTy).Contents (Elt F)) : (⟨S128x64, .f32⟩ : BufTy).Contents (Elt F) :=
  Host.divf (Host.scatterAdd scatter_S128x64_S100000x1_S100000x64_1_0_0_1 (broadcastInDim S128x64 ![] bcast_S_S128x64 (constant S_ .f32 0x00000000#32)) (broadcastInDim S100000x1 ![0] bcast_S100000_S100000x1_0 batch) h) (broadcastInDim S128x64 ![0, 1] bcast_S128x1_S128x64_0_1 (broadcastInDim S128x1 ![0] bcast_S128_S128x1_0 (maximumf (broadcastInDim S128 ![] bcast_S_S128 (id (constant S_ .f32 0x3F800000#32))) (Host.scatterAdd scatter_S128_S100000x1_S100000_n_0_0_1 (broadcastInDim S128 ![] bcast_S_S128 (constant S_ .f32 0x00000000#32)) (broadcastInDim S100000x1 ![0] bcast_S100000_S100000x1_0 batch) (broadcastInDim S100000 ![] bcast_S_S100000 (constant S_ .f32 0x3F800000#32))))))

/-- A bias vector as a one-row matrix. -/
def biasRow (b : (⟨S64, .f32⟩ : BufTy).Contents (Elt F)) : (⟨S1x64, .f32⟩ : BufTy).Contents (Elt F) :=
  shapeCast S1x64 b shapeCasts_S64_S1x64

/-- The output bias as a one-row matrix. -/
def outRow (b : (⟨S2, .f32⟩ : BufTy).Contents (Elt F)) : (⟨S1x2, .f32⟩ : BufTy).Contents (Elt F) :=
  shapeCast S1x2 b shapeCasts_S2_S1x2

end Cert.KernelIdeal.Stage

end
-- ==== Proof.Graph.lean ====
/-
  The three stretches of host operations before the first region, read: they leave the edges' sources and destinations (the
  edge index's rows with the nodes' own indices appended) and the edges' weights (the product of the two ends' degree
  normalisers), as the graph stages of the edge index.
-/
import proofs.«167483_j16303695856042_1_alg».proof.Proof.Gen.KernelIdeal.Frame
import proofs.«167483_j16303695856042_1_alg».proof.Proof.Stage
import proofs.«167483_j16303695856042_1_alg».proof.Proof.LibHostKeeps
import Idealize.ShloMosaic.Lib.StableHlo.Run
import Idealize.ShloMosaic.PureOps.Ideal

set_option maxRecDepth 16384

noncomputable section

namespace Cert.KernelIdeal.Graph

open Cert.KernelIdeal Cert.KernelIdeal.Facts₀ Cert.KernelIdeal.Gen Cert.KernelIdeal.Stage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The host stretches, read -/

set_option maxHeartbeats 4000000 in
/-- The edges' sources, of the edge index. -/
theorem sources (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The edges' destinations, of the edge index. -/
theorem destinations (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results_simp <;> rfl

/-! ### The edges' weights, stretch by stretch

Each stretch is read over an arbitrary entry valuation `X`, so that a reading stops at the stretch's entry; the three are then
joined through the boundaries. -/

/-- The normaliser from its three ingredients: where the degree is positive, one over its square root, else the zero. -/
def normaliserFrom (pos : (⟨S100000, .i1⟩ : BufTy).Contents (Elt Ideal)) (rs : (⟨S100000, .f32⟩ : BufTy).Contents (Elt Ideal))
    (z : (⟨S_, .f32⟩ : BufTy).Contents (Elt Ideal)) : (⟨S100000, .f32⟩ : BufTy).Contents (Elt Ideal) :=
  select pos rs (broadcastInDim S100000 ![] Facts₀.bcast_S_S100000 (id z))

section
variable {F : FTy → Type} [FloatOps F]

/-- The edges' weights from a normaliser: its values at the two ends of every edge, multiplied. -/
def weightsFrom (dn : (⟨S100000, .f32⟩ : BufTy).Contents (Elt F)) (src dst : (⟨S3300000, .i32⟩ : BufTy).Contents (Elt F)) :
    (⟨S3300000, .f32⟩ : BufTy).Contents (Elt F) :=
  mulf (Host.gather gather_S100000_S3300000x1_S3300000_n_0_n_n_0_1_1 dn (wrapped src)) (Host.gather gather_S100000_S3300000x1_S3300000_n_0_n_n_0_1_1 dn (wrapped dst))

end

section Stretches

variable (X : Valuation τ sig (Elt Ideal))

set_option maxHeartbeats 4000000 in
/-- The first stretch leaves the edges' sources. -/
theorem first_sources : StableHlo.after hostOps0 X (Proc.devRef .tc main_v3) = srcOf (X (Proc.devRef .tc main_arg1)) := by
  after_results_simp <;> rfl

set_option maxHeartbeats 4000000 in
/-- The first stretch leaves the edges' destinations. -/
theorem first_destinations : StableHlo.after hostOps0 X (Proc.devRef .tc main_v6) = dstOf (X (Proc.devRef .tc main_arg1)) := by
  after_results_simp <;> rfl

set_option maxHeartbeats 4000000 in
/-- The first stretch leaves, per node, whether its degree is positive. -/
theorem first_positive : StableHlo.after hostOps0 X (Proc.devRef .tc main_v12)
    = cmpf (F := Ideal) .ogt (degree (dstOf (X (Proc.devRef .tc main_arg1)))) (broadcastInDim S100000 ![] Facts₀.bcast_S_S100000 (constant S_ .f32 0x00000000#32)) := by
  after_results_simp <;> rfl

set_option maxHeartbeats 4000000 in
/-- The first stretch leaves, per node, one over the square root of its degree. -/
theorem first_rsqrt : StableHlo.after hostOps0 X (Proc.devRef .tc main_v13) = Host.rsqrt (degree (dstOf (X (Proc.devRef .tc main_arg1)))) := by
  after_results_simp <;> rfl

/-- The first stretch leaves the zero the normaliser falls back to. -/
theorem first_zero : StableHlo.after hostOps0 X (Proc.devRef .tc main_cst_2) = constant (F := Ideal) S_ .f32 0x00000000#32 := by
  after_results_simp <;> rfl

/-- The second stretch selects between the two, per node. -/
theorem second_normaliser : StableHlo.after hostOps0_1 X (Proc.devRef .tc main_v14)
    = normaliserFrom (X (Proc.devRef .tc main_v12)) (X (Proc.devRef .tc main_v13)) (X (Proc.devRef .tc main_cst_2)) := by
  after_results
  rfl

set_option maxHeartbeats 4000000 in
/-- The third stretch gathers the normaliser at the two ends of every edge and multiplies. -/
theorem third_weights : StableHlo.after hostOps0_2 X (Proc.devRef .tc main_v29)
    = weightsFrom (F := Ideal) (X (Proc.devRef .tc main_v14)) (X (Proc.devRef .tc main_v3)) (X (Proc.devRef .tc main_v6)) := by
  after_results
  rfl

end Stretches

/-- The degree normaliser, of the edge index, after the second stretch. -/
theorem normaliser_at2 (c : Dev nD) : W2 m ρ c (Proc.devRef .tc main_v14) = normaliser (dstOf (m ((c : Thread nD τ).loc main_arg1))) := by
  refine (second_normaliser (W1 m ρ c)).trans ?_
  rw [show W1 m ρ c (Proc.devRef .tc main_v12) = _ from first_positive (W0 m ρ c),
    show W1 m ρ c (Proc.devRef .tc main_v13) = _ from first_rsqrt (W0 m ρ c),
    show W1 m ρ c (Proc.devRef .tc main_cst_2) = _ from first_zero (W0 m ρ c)]
  rfl

/-- The edges' sources pass the second stretch. -/
theorem sources_at2 (c : Dev nD) : W2 m ρ c (Proc.devRef .tc main_v3) = srcOf (m ((c : Thread nD τ).loc main_arg1)) :=
  (by host_keeps hostOps0_1 : W2 m ρ c (Proc.devRef .tc main_v3) = W1 m ρ c (Proc.devRef .tc main_v3)).trans (first_sources (W0 m ρ c))

/-- The edges' destinations pass the second stretch. -/
theorem destinations_at2 (c : Dev nD) : W2 m ρ c (Proc.devRef .tc main_v6) = dstOf (m ((c : Thread nD τ).loc main_arg1)) :=
  (by host_keeps hostOps0_1 : W2 m ρ c (Proc.devRef .tc main_v6) = W1 m ρ c (Proc.devRef .tc main_v6)).trans (first_destinations (W0 m ρ c))

/-- The edges' weights, of the edge index. -/
theorem weights (c : Dev nD) : W3 m ρ c (Proc.devRef .tc main_v29)
    = edgeWeight (srcOf (m ((c : Thread nD τ).loc main_arg1))) (dstOf (m ((c : Thread nD τ).loc main_arg1))) := by
  refine (third_weights (W2 m ρ c)).trans ?_
  rw [normaliser_at2, sources_at2, destinations_at2]
  rfl

end Cert.KernelIdeal.Graph

end
-- ==== Proof.Layers.lean ====
/-
  The host stretches between the regions, read: before each rectifier region, the layer's aggregate of the preceding
  product over the edges and the bias as a one-row matrix; before the last region, the pooled matrix and the output bias as a
  one-row matrix — each of the buffers the stretch found.
-/
import proofs.«167483_j16303695856042_1_alg».proof.Proof.Gen.KernelIdeal.Frame
import proofs.«167483_j16303695856042_1_alg».proof.Proof.Stage
import Idealize.ShloMosaic.Lib.StableHlo.Run
import Idealize.ShloMosaic.PureOps.Ideal

set_option maxRecDepth 16384

noncomputable section

namespace Cert.KernelIdeal.Layers

open Cert.KernelIdeal Cert.KernelIdeal.Facts₀ Cert.KernelIdeal.Gen Cert.KernelIdeal.Stage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The host stretches, read -/

set_option maxHeartbeats 4000000 in
/-- The first layer's aggregate, of what the first region left and the graph. -/
theorem aggregate1 (c : Dev nD) : W5 m ρ c (Proc.devRef .tc main_v43)
    = aggregate (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  after_results
  rfl

/-- The first bias as a one-row matrix. -/
theorem bias1 (c : Dev nD) : W5 m ρ c (Proc.devRef .tc main_v44) = biasRow (W4 m ρ c (Proc.devRef .tc main_arg4)) := by
  show StableHlo.after hostOps1 (W4 m ρ c) (Proc.devRef .tc main_v44) = _
  after_results
  rfl

set_option maxHeartbeats 4000000 in
/-- The second layer's aggregate, of what the third region left and the graph. -/
theorem aggregate2 (c : Dev nD) : W8 m ρ c (Proc.devRef .tc main_v59)
    = aggregate (W7 m ρ c (Proc.devRef .tc main_v46)) (W7 m ρ c (Proc.devRef .tc main_v3)) (W7 m ρ c (Proc.devRef .tc main_v6)) (W7 m ρ c (Proc.devRef .tc main_v29)) := by
  show StableHlo.after hostOps3 (W7 m ρ c) (Proc.devRef .tc main_v59) = _
  after_results
  rfl

/-- The second bias as a one-row matrix. -/
theorem bias2 (c : Dev nD) : W8 m ρ c (Proc.devRef .tc main_v60) = biasRow (W7 m ρ c (Proc.devRef .tc main_arg6)) := by
  show StableHlo.after hostOps3 (W7 m ρ c) (Proc.devRef .tc main_v60) = _
  after_results
  rfl

set_option maxHeartbeats 4000000 in
/-- The pooled matrix, of what the fourth region left and the graph assignment. -/
theorem pool (c : Dev nD) : W12 m ρ c (Proc.devRef .tc main_v72)
    = pooled (W9 m ρ c (Proc.devRef .tc main_v61)) (W9 m ρ c (Proc.devRef .tc main_arg2)) := by
  show StableHlo.after hostOps4_2 (StableHlo.after hostOps4_1 (StableHlo.after hostOps4 (W9 m ρ c))) (Proc.devRef .tc main_v72) = _
  after_results
  rfl

/-- The output bias as a one-row matrix. -/
theorem biasOut (c : Dev nD) : W12 m ρ c (Proc.devRef .tc main_v73) = outRow (W9 m ρ c (Proc.devRef .tc main_arg8)) := by
  show StableHlo.after hostOps4_2 (StableHlo.after hostOps4_1 (StableHlo.after hostOps4 (W9 m ρ c))) (Proc.devRef .tc main_v73) = _
  after_results
  rfl

end Cert.KernelIdeal.Layers

end
-- ==== Proof.Dense0.lean ====
/-
  The first layer's linear map, as one product of whole arrays.

  The region walks ten blocks of 10000 rows, the weight matrix resident. At a block it multiplies the block's rows by the
  weights into a zero accumulator: entry (p, q) of the block's product is the sum over k of block(p, k) · w(k, q) — the
  change of float format before the product is the identity on extended reals. Row r of the array lies in the block
  `r / 10000`, whose row p is row `10000 · block + p` of the input, so the array the region leaves is the whole product:
  entry (r, q) is the sum over k of x(r, k) · w(k, q).
-/
import proofs.«167483_j16303695856042_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat)

/-- Rows times weights, whole arrays: entry (r, q) is the sum over k of x(r, k) · w(k, q). -/
def rowsTimes (x : S100000x256.Idx → EReal) (w : S256x64.Idx → EReal) : S100000x64.Idx → EReal :=
  fun i => ∑ k : Fin 256, x (ix2 (⟨(i 0).val, (i 0).isLt⟩ : Fin 100000) k) * w (ix2 k (⟨(i 1).val, (i 1).isLt⟩ : Fin 64))

local notation "blockDot" => dot_S10000x256_S256x64_S10000x64_1_0_0_1_n_n

/-- The left operand of the block's product is read on the output's row. -/
theorem lhs_row (i : S10000x64.Idx) (q : (blockDot).contr.Idx) : ((blockDot).lhsIdx i q 0).val = (i 0).val := by
  unfold DotDims.lhsIdx
  rw [dif_neg (show ¬(0 : Fin S10000x256.rank) ∈ (blockDot).lhsBatch by decide), dif_pos (show (0 : Fin S10000x256.rank) ∈ (blockDot).lhsNonContracting by decide)]
  rfl
/-- The right operand of the block's product is read on the output's column. -/
theorem rhs_col (i : S10000x64.Idx) (q : (blockDot).contr.Idx) : ((blockDot).rhsIdx i q 1).val = (i 1).val := by
  unfold DotDims.rhsIdx
  rw [dif_neg (show ¬(1 : Fin S256x64.rank) ∈ (blockDot).rhsBatch by decide), dif_pos (show (1 : Fin S256x64.rank) ∈ (blockDot).rhsNonContracting by decide)]
  rfl

/-- What the body stores at (p, q) of a block: the sum over k of block(p, k) · w(k, q). -/
theorem stored_at (x : Vec Ideal S10000x256 .f32) (w : Vec Ideal S256x64 .f32) (p : Fin 10000) (q : Fin 64) :
    k0_pay1 (F := Ideal) x w (ix2 p q) = ∑ k : Fin 256, x (ix2 p k) * w (ix2 k q) := by
  unfold k0_pay1
  simp only [matmul]
  rw [Ideal.matmul_constant_zero_apply, ← Equiv.sum_comp (contrEquiv1 (blockDot) 256 rfl rfl).symm]
  refine Finset.sum_congr rfl fun k _ => ?_
  have hk := contrEquiv1_symm_val (blockDot) 256 rfl rfl k
  have el : (blockDot).lhsIdx (ix2 p q) ((contrEquiv1 (blockDot) 256 rfl rfl).symm k) = ix2 p k := funext fun a => Fin.ext (by
    match a with
    | ⟨0, _⟩ => exact lhs_row _ _
    | ⟨1, _⟩ => exact ((blockDot).lhsIdx_val_of_single rfl _ _).trans hk)
  have er : (blockDot).rhsIdx (ix2 p q) ((contrEquiv1 (blockDot) 256 rfl rfl).symm k) = ix2 k q := funext fun a => Fin.ext (by
    match a with
    | ⟨0, _⟩ => exact ((blockDot).rhsIdx_val_of_single rfl _ _).trans hk
    | ⟨1, _⟩ => exact rhs_col _ _)
  rw [el, er]
  rfl

/-- Sum and product of extended reals with the type stated, for goals whose entries are read off a buffer. -/
local infixl:65 " +ₑ " => (HAdd.hAdd : EReal → EReal → EReal)
local infixl:70 " *ₑ " => (HMul.hMul : EReal → EReal → EReal)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the input block moves with the output block down the rows, the weights stay. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every one of the ten row blocks is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the arrays as the region finds them. -/
theorem flushed_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero origin]
  simp only [View.ld_unit_zero (S := S10000x256) origin, View.ld_unit_zero (S := S256x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  refine (stored_at _ _ p q).trans ?_
  show (∑ k : Fin 256, (V c main_arg0 : S100000x256.Idx → EReal) (((cfg0.win 0).blk t).view.emb (ix2 p k)) *ₑ (V c main_arg3 : S256x64.Idx → EReal) (((cfg0.win 1).blk t).view.emb (ix2 k q)))
    = ∑ k : Fin 256, (V c main_arg0 : S100000x256.Idx → EReal) (ix2 (⟨((((cfg0.win 2).blk t).view.emb (ix2 p q)) 0).val, ((((cfg0.win 2).blk t).view.emb (ix2 p q)) 0).isLt⟩ : Fin 100000) k)
      *ₑ (V c main_arg3 : S256x64.Idx → EReal) (ix2 k (⟨((((cfg0.win 2).blk t).view.emb (ix2 p q)) 1).val, ((((cfg0.win 2).blk t).view.emb (ix2 p q)) 1).isLt⟩ : Fin 64))
  have hp : p.val < 10000 := p.isLt
  have hq : q.val < 64 := q.isLt
  have h0 : ∀ k : Fin 256, ((cfg0.win 0).blk t).view.emb (ix2 p k)
      = ix2 (⟨((((cfg0.win 2).blk t).view.emb (ix2 p q)) 0).val, ((((cfg0.win 2).blk t).view.emb (ix2 p q)) 0).isLt⟩ : Fin 100000) k := fun k => by
    have hkk : k.val < 256 := k.isLt
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * k.val = k.val; omega
  have h1 : ∀ k : Fin 256, ((cfg0.win 1).blk t).view.emb (ix2 k q)
      = ix2 k (⟨((((cfg0.win 2).blk t).view.emb (ix2 p q)) 1).val, ((((cfg0.win 2).blk t).view.emb (ix2 p q)) 1).isLt⟩ : Fin 64) := fun k => by
    have hkk : k.val < 256 := k.isLt
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  exact Finset.sum_congr rfl fun k _ => by rw [h0 k, h1 k]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block `r / 10000`, which some point writes back. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the region leaves: the whole product of the arrays it found. -/
theorem final (c : Dev nD) : (dat0 V c).arrAt 2 cfg0.N = rowsTimes (V c main_arg0) (V c main_arg3) :=
  (dat0 V c).arrAt_eq_of_cover 2 _ (fun t _ => flushed_eq V c t) (covered)

end Cert.KernelIdeal.Dense0

end
-- ==== Proof.Act1.lean ====
/-
  The first layer's bias and rectifier, as one function of whole arrays.

  The region walks ten blocks of 10000 rows. At a block it adds the bias row to every row of the block and takes the maximum
  with zero. Every entry of the [100000, 64] array lies in exactly the block `row / 10000`, and a block's entry (p, q) is
  row `10000 · block + p` of the input, so the array the region leaves is one function of the whole input array and the
  bias row: entry (r, q) is max (a(r, q) + b(0, q), 0).
-/
import proofs.«167483_j16303695856042_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Act1

open Cert.KernelIdeal Cert.KernelIdeal.Gen
open Idealize.ShloMosaic Idealize.ShloMosaic.TcCoe Idealize.SL.Sem Idealize.ShloMosaic.ValueIdx
open Idealize.ShloMosaic.Pipeline (Dat)

/-- Every row plus the bias row, then the maximum with zero: the whole array the region leaves. -/
def biasMax (a : S100000x64.Idx → EReal) (b : S1x64.Idx → EReal) : S100000x64.Idx → EReal :=
  fun i => max (a i + b (ix2 (0 : Fin 1) (⟨(i 1).val, (i 1).isLt⟩ : Fin 64))) (Ideal.ofBits .f32 0x00000000#32)

/-- The bias row stretched down a block, read at (p, q), is the row's entry q. -/
theorem row_at (b : Vec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-- What the body stores at (p, q) of a block: the block's entry plus the bias entry, against zero. -/
theorem stored_at (x : Vec Ideal S10000x64 .f32) (b : Vec Ideal S1x64 .f32) (p : Fin 10000) (q : Fin 64) :
    k1_pay1 (F := Ideal) x b (ix2 p q) = max (x (ix2 p q) + b (ix2 (0 : Fin 1) q)) (Ideal.ofBits .f32 0x00000000#32) := by
  unfold k1_pay1
  rw [shapeCast_self, shapeCast_self]
  show max (x (ix2 p q) + broadcastTo S10000x64 b broadcasts_S1x64_S10000x64 (ix2 p q)) _ = _
  rw [row_at]
  rfl

/-- Sum and product of extended reals with the type stated, for goals whose entries are read off a buffer. -/
local infixl:65 " +ₑ " => (HAdd.hAdd : EReal → EReal → EReal)
local infixl:70 " *ₑ " => (HMul.hMul : EReal → EReal → EReal)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the input block moves with the output block down the rows, the bias block stays. -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every one of the ten row blocks is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole-array function of the arrays as the region finds them. -/
theorem flushed_eq (c : Dev nD) (t : Fin cfg1.N) :
    (dat1 V c).flushed 2 t = ((cfg1.win 2).blk t).view.read (Elt Ideal) (biasMax (V c main_v43) (V c main_v44)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  refine (stored_at _ _ p q).trans ?_
  show max ((V c main_v43 : S100000x64.Idx → EReal) (((cfg1.win 0).blk t).view.emb (ix2 p q)) +ₑ (V c main_v44 : S1x64.Idx → EReal) (((cfg1.win 1).blk t).view.emb (ix2 (0 : Fin 1) q))) _
    = max ((V c main_v43 : S100000x64.Idx → EReal) (((cfg1.win 2).blk t).view.emb (ix2 p q)) +ₑ (V c main_v44 : S1x64.Idx → EReal) (ix2 (0 : Fin 1) (⟨((((cfg1.win 2).blk t).view.emb (ix2 p q)) 1).val, _⟩ : Fin 64))) _
  have hp : p.val < 10000 := p.isLt
  have hq : q.val < 64 := q.isLt
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row r lies in the block `r / 10000`, which some point writes back. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array the region leaves: the bias added to every row of the array it found, against zero. -/
theorem final (c : Dev nD) : (dat1 V c).arrAt 2 cfg1.N = biasMax (V c main_v43) (V c main_v44) :=
  (dat1 V c).arrAt_eq_of_cover 2 _ (fun t _ => flushed_eq V c t) (covered)

end Cert.KernelIdeal.Act1

end
-- ==== Proof.Dense2.lean ====
/-
  The second layer's linear map, as one product of whole arrays.

  The region walks ten blocks of 10000 rows, the weight matrix resident. At a block it multiplies the block's rows by the
  weights into a zero accumulator: entry (p, q) of the block's product is the sum over k of block(p, k) · w(k, q) — the
  change of float format before the product is the identity on extended reals. Row r of the array lies in the block
  `r / 10000`, whose row p is row `10000 · block + p` of the input, so the array the region leaves is the whole product:
  entry (r, q) is the sum over k of x(r, k) · w(k, q).
-/
import proofs.«167483_j16303695856042_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)

/-- Rows times weights, whole arrays: entry (r, q) is the sum over k of x(r, k) · w(k, q). -/
def rowsTimes (x : S100000x64.Idx → EReal) (w : S64x64.Idx → EReal) : S100000x64.Idx → EReal :=
  fun i => ∑ k : Fin 64, x (ix2 (⟨(i 0).val, (i 0).isLt⟩ : Fin 100000) k) * w (ix2 k (⟨(i 1).val, (i 1).isLt⟩ : Fin 64))

local notation "blockDot" => dot_S10000x64_S64x64_S10000x64_1_0_0_1_n_n

/-- The left operand of the block's product is read on the output's row. -/
theorem lhs_row (i : S10000x64.Idx) (q : (blockDot).contr.Idx) : ((blockDot).lhsIdx i q 0).val = (i 0).val := by
  unfold DotDims.lhsIdx
  rw [dif_neg (show ¬(0 : Fin S10000x64.rank) ∈ (blockDot).lhsBatch by decide), dif_pos (show (0 : Fin S10000x64.rank) ∈ (blockDot).lhsNonContracting by decide)]
  rfl
/-- The right operand of the block's product is read on the output's column. -/
theorem rhs_col (i : S10000x64.Idx) (q : (blockDot).contr.Idx) : ((blockDot).rhsIdx i q 1).val = (i 1).val := by
  unfold DotDims.rhsIdx
  rw [dif_neg (show ¬(1 : Fin S64x64.rank) ∈ (blockDot).rhsBatch by decide), dif_pos (show (1 : Fin S64x64.rank) ∈ (blockDot).rhsNonContracting by decide)]
  rfl

/-- What the body stores at (p, q) of a block: the sum over k of block(p, k) · w(k, q). -/
theorem stored_at (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  rw [shapeCast_self]
  simp only [matmul]
  rw [Ideal.matmul_constant_zero_apply, ← Equiv.sum_comp (contrEquiv1 (blockDot) 64 rfl rfl).symm]
  refine Finset.sum_congr rfl fun k _ => ?_
  have hk := contrEquiv1_symm_val (blockDot) 64 rfl rfl k
  have el : (blockDot).lhsIdx (ix2 p q) ((contrEquiv1 (blockDot) 64 rfl rfl).symm k) = ix2 p k := funext fun a => Fin.ext (by
    match a with
    | ⟨0, _⟩ => exact lhs_row _ _
    | ⟨1, _⟩ => exact ((blockDot).lhsIdx_val_of_single rfl _ _).trans hk)
  have er : (blockDot).rhsIdx (ix2 p q) ((contrEquiv1 (blockDot) 64 rfl rfl).symm k) = ix2 k q := funext fun a => Fin.ext (by
    match a with
    | ⟨0, _⟩ => exact ((blockDot).rhsIdx_val_of_single rfl _ _).trans hk
    | ⟨1, _⟩ => exact rhs_col _ _)
  rw [el, er]
  rfl

/-- Sum and product of extended reals with the type stated, for goals whose entries are read off a buffer. -/
local infixl:65 " +ₑ " => (HAdd.hAdd : EReal → EReal → EReal)
local infixl:70 " *ₑ " => (HMul.hMul : EReal → EReal → EReal)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the input block moves with the output block down the rows, the weights stay. -/
theorem index_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every one of the ten row blocks is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product of the arrays as the region finds them. -/
theorem flushed_eq (c : Dev nD) (t : Fin cfg2.N) :
    (dat2 V c).flushed 2 t = ((cfg2.win 2).blk t).view.read (Elt Ideal) (rowsTimes (V c main_v45) (V c main_arg5)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  refine (stored_at _ _ p q).trans ?_
  show (∑ k : Fin 64, (V c main_v45 : S100000x64.Idx → EReal) (((cfg2.win 0).blk t).view.emb (ix2 p k)) *ₑ (V c main_arg5 : S64x64.Idx → EReal) (((cfg2.win 1).blk t).view.emb (ix2 k q)))
    = ∑ k : Fin 64, (V c main_v45 : S100000x64.Idx → EReal) (ix2 (⟨((((cfg2.win 2).blk t).view.emb (ix2 p q)) 0).val, ((((cfg2.win 2).blk t).view.emb (ix2 p q)) 0).isLt⟩ : Fin 100000) k)
      *ₑ (V c main_arg5 : S64x64.Idx → EReal) (ix2 k (⟨((((cfg2.win 2).blk t).view.emb (ix2 p q)) 1).val, ((((cfg2.win 2).blk t).view.emb (ix2 p q)) 1).isLt⟩ : Fin 64))
  have hp : p.val < 10000 := p.isLt
  have hq : q.val < 64 := q.isLt
  have h0 : ∀ k : Fin 64, ((cfg2.win 0).blk t).view.emb (ix2 p k)
      = ix2 (⟨((((cfg2.win 2).blk t).view.emb (ix2 p q)) 0).val, ((((cfg2.win 2).blk t).view.emb (ix2 p q)) 0).isLt⟩ : Fin 100000) k := fun k => by
    have hkk : k.val < 64 := k.isLt
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ∀ k : Fin 64, ((cfg2.win 1).blk t).view.emb (ix2 k q)
      = ix2 k (⟨((((cfg2.win 2).blk t).view.emb (ix2 p q)) 1).val, ((((cfg2.win 2).blk t).view.emb (ix2 p q)) 1).isLt⟩ : Fin 64) := fun k => by
    have hkk : k.val < 64 := k.isLt
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact Finset.sum_congr rfl fun k _ => by rw [h0 k, h1 k]

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r lies in the block `r / 10000`, which some point writes back. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the region leaves: the whole product of the arrays it found. -/
theorem final (c : Dev nD) : (dat2 V c).arrAt 2 cfg2.N = rowsTimes (V c main_v45) (V c main_arg5) :=
  (dat2 V c).arrAt_eq_of_cover 2 _ (fun t _ => flushed_eq V c t) (covered)

end Cert.KernelIdeal.Dense2

end
-- ==== Proof.Act3.lean ====
/-
  The second layer's bias and rectifier, as one function of whole arrays.

  The region walks ten blocks of 10000 rows. At a block it adds the bias row to every row of the block and takes the maximum
  with zero. Every entry of the [100000, 64] array lies in exactly the block `row / 10000`, and a block's entry (p, q) is
  row `10000 · block + p` of the input, so the array the region leaves is one function of the whole input array and the
  bias row: entry (r, q) is max (a(r, q) + b(0, q), 0).
-/
import proofs.«167483_j16303695856042_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Act3

open Cert.KernelIdeal Cert.KernelIdeal.Gen
open Idealize.ShloMosaic Idealize.ShloMosaic.TcCoe Idealize.SL.Sem Idealize.ShloMosaic.ValueIdx
open Idealize.ShloMosaic.Pipeline (Dat)

/-- Every row plus the bias row, then the maximum with zero: the whole array the region leaves. -/
def biasMax (a : S100000x64.Idx → EReal) (b : S1x64.Idx → EReal) : S100000x64.Idx → EReal :=
  fun i => max (a i + b (ix2 (0 : Fin 1) (⟨(i 1).val, (i 1).isLt⟩ : Fin 64))) (Ideal.ofBits .f32 0x00000000#32)

/-- The bias row stretched down a block, read at (p, q), is the row's entry q. -/
theorem row_at (b : Vec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-- What the body stores at (p, q) of a block: the block's entry plus the bias entry, against zero. -/
theorem stored_at (x : Vec Ideal S10000x64 .f32) (b : Vec Ideal S1x64 .f32) (p : Fin 10000) (q : Fin 64) :
    k3_pay1 (F := Ideal) x b (ix2 p q) = max (x (ix2 p q) + b (ix2 (0 : Fin 1) q)) (Ideal.ofBits .f32 0x00000000#32) := by
  unfold k3_pay1
  rw [shapeCast_self, shapeCast_self]
  show max (x (ix2 p q) + broadcastTo S10000x64 b broadcasts_S1x64_S10000x64 (ix2 p q)) _ = _
  rw [row_at]
  rfl

/-- Sum and product of extended reals with the type stated, for goals whose entries are read off a buffer. -/
local infixl:65 " +ₑ " => (HAdd.hAdd : EReal → EReal → EReal)
local infixl:70 " *ₑ " => (HMul.hMul : EReal → EReal → EReal)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: the input block moves with the output block down the rows, the bias block stays. -/
theorem index_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every one of the ten row blocks is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole-array function of the arrays as the region finds them. -/
theorem flushed_eq (c : Dev nD) (t : Fin cfg3.N) :
    (dat3 V c).flushed 2 t = ((cfg3.win 2).blk t).view.read (Elt Ideal) (biasMax (V c main_v59) (V c main_v60)) := by
  show (cfg3.win 2).cut (grid3.coords t) ((dat3 V c).after 2 t) = _
  rw [after3_2]
  unfold out3_2
  rw [View.canon_unit_zero origin]
  simp only [View.ld_unit_zero (S := S10000x64) origin, View.ld_unit_zero (S := S1x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  refine (stored_at _ _ p q).trans ?_
  show max ((V c main_v59 : S100000x64.Idx → EReal) (((cfg3.win 0).blk t).view.emb (ix2 p q)) +ₑ (V c main_v60 : S1x64.Idx → EReal) (((cfg3.win 1).blk t).view.emb (ix2 (0 : Fin 1) q))) _
    = max ((V c main_v59 : S100000x64.Idx → EReal) (((cfg3.win 2).blk t).view.emb (ix2 p q)) +ₑ (V c main_v60 : S1x64.Idx → EReal) (ix2 (0 : Fin 1) (⟨((((cfg3.win 2).blk t).view.emb (ix2 p q)) 1).val, _⟩ : Fin 64))) _
  have hp : p.val < 10000 := p.isLt
  have hq : q.val < 64 := q.isLt
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) (⟨((((cfg3.win 2).blk t).view.emb (ix2 p q)) 1).val, ((((cfg3.win 2).blk t).view.emb (ix2 p q)) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row r lies in the block `r / 10000`, which some point writes back. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array the region leaves: the bias added to every row of the array it found, against zero. -/
theorem final (c : Dev nD) : (dat3 V c).arrAt 2 cfg3.N = biasMax (V c main_v59) (V c main_v60) :=
  (dat3 V c).arrAt_eq_of_cover 2 _ (fun t _ => flushed_eq V c t) (covered)

end Cert.KernelIdeal.Act3

end
-- ==== Proof.Head4.lean ====
/-
  The output layer, as one function of whole arrays.

  The last region has a single grid point whose blocks are its whole arrays. It multiplies the pooled [128, 64] matrix by the
  [64, 2] weights into a zero accumulator and adds the bias row to every row: entry (g, q) is the sum over k of
  pooled(g, k) · w(k, q), plus b(0, q). The change of float format before the product is the identity on extended reals.
-/
import proofs.«167483_j16303695856042_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head4

open Cert.KernelIdeal Cert.KernelIdeal.Gen
open Idealize.ShloMosaic Idealize.ShloMosaic.TcCoe Idealize.SL.Sem Idealize.ShloMosaic.ValueIdx
open Idealize.ShloMosaic.Pipeline (Dat)

/-- The pooled rows times the weights, plus the bias row: the whole array the region leaves. -/
def affine (x : S128x64.Idx → EReal) (w : S64x2.Idx → EReal) (b : S1x2.Idx → EReal) : S128x2.Idx → EReal :=
  fun i => (∑ k : Fin 64, x (ix2 (⟨(i 0).val, (i 0).isLt⟩ : Fin 128) k) * w (ix2 k (⟨(i 1).val, (i 1).isLt⟩ : Fin 2)))
    + b (ix2 (0 : Fin 1) (⟨(i 1).val, (i 1).isLt⟩ : Fin 2))

local notation "headDot" => dot_S128x64_S64x2_S128x2_1_0_0_1_n_n

theorem lhs_row (i : S128x2.Idx) (q : (headDot).contr.Idx) : ((headDot).lhsIdx i q 0).val = (i 0).val := by
  unfold DotDims.lhsIdx
  rw [dif_neg (show ¬(0 : Fin S128x64.rank) ∈ (headDot).lhsBatch by decide), dif_pos (show (0 : Fin S128x64.rank) ∈ (headDot).lhsNonContracting by decide)]
  rfl
theorem rhs_col (i : S128x2.Idx) (q : (headDot).contr.Idx) : ((headDot).rhsIdx i q 1).val = (i 1).val := by
  unfold DotDims.rhsIdx
  rw [dif_neg (show ¬(1 : Fin S64x2.rank) ∈ (headDot).rhsBatch by decide), dif_pos (show (1 : Fin S64x2.rank) ∈ (headDot).rhsNonContracting by decide)]
  rfl

/-- The bias row stretched down the rows, read at (p, q), is the row's entry q. -/
theorem row_at (b : Vec Ideal S1x2 .f32) (p : Fin 128) (q : Fin 2) :
    broadcastTo S128x2 b broadcasts_S1x2_S128x2 (ix2 p q) = b (ix2 (0 : Fin 1) q) :=
  broadcastTo_apply b broadcasts_S1x2_S128x2 (ix2 p q) (ix2 (0 : Fin 1) q) (fun a => match a with
    | ⟨0, _⟩ => by show 0 = if (1 : Nat) = 1 then 0 else _; rw [if_pos rfl]
    | ⟨1, _⟩ => by show q.val = if (2 : Nat) = 1 then 0 else q.val; rw [if_neg (by decide)])

/-- The product into a zero accumulator, read at (p, q). -/
theorem product_at (x : FVec Ideal S128x64 .bf16) (w : FVec Ideal S64x2 .bf16) (p : Fin 128) (q : Fin 2) :
    matmul (headDot) none x w (constant S128x2 .f32 0x00000000#32) (ix2 p q) = ∑ k : Fin 64, x (ix2 p k) * w (ix2 k q) := by
  simp only [matmul]
  rw [Ideal.matmul_constant_zero_apply, ← Equiv.sum_comp (contrEquiv1 (headDot) 64 rfl rfl).symm]
  refine Finset.sum_congr rfl fun k _ => ?_
  have hk := contrEquiv1_symm_val (headDot) 64 rfl rfl k
  have el : (headDot).lhsIdx (ix2 p q) ((contrEquiv1 (headDot) 64 rfl rfl).symm k) = ix2 p k := funext fun a => Fin.ext (by
    match a with
    | ⟨0, _⟩ => exact lhs_row _ _
    | ⟨1, _⟩ => exact ((headDot).lhsIdx_val_of_single rfl _ _).trans hk)
  have er : (headDot).rhsIdx (ix2 p q) ((contrEquiv1 (headDot) 64 rfl rfl).symm k) = ix2 k q := funext fun a => Fin.ext (by
    match a with
    | ⟨0, _⟩ => exact ((headDot).rhsIdx_val_of_single rfl _ _).trans hk
    | ⟨1, _⟩ => exact rhs_col _ _)
  rw [el, er]

/-- What the body stores at (p, q): the sum over k of x(p, k) · w(k, q), plus the bias entry. -/
theorem stored_at (x : Vec Ideal S128x64 .f32) (w : Vec Ideal S64x2 .f32) (b : Vec Ideal S1x2 .f32) (p : Fin 128) (q : Fin 2) :
    k4_pay1 (F := Ideal) x w b (ix2 p q) = (∑ k : Fin 64, x (ix2 p k) * w (ix2 k q)) + b (ix2 (0 : Fin 1) q) := by
  unfold k4_pay1
  rw [shapeCast_self, shapeCast_self]
  refine (addf_apply _ _ _).trans ?_
  rw [product_at, row_at]
  rfl

/-- Sum and product of extended reals with the type stated, for goals whose entries are read off a buffer. -/
local infixl:65 " +ₑ " => (HAdd.hAdd : EReal → EReal → EReal)
local infixl:70 " *ₑ " => (HMul.hMul : EReal → EReal → EReal)

variable (V : (c : Dev nD) → (b : Ref sig .tc) → Buf (Elt Ideal) ((c : Thread nD τ).loc b))

theorem origin : (![0, 0] : Fin 2 → Nat) = fun _ => 0 := funext fun a => by fin_cases a <;> rfl

/-- At the one grid point every window's block is the block at the origin. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one point writes back is the whole-array function of the arrays as the region finds them. -/
theorem flushed_eq (c : Dev nD) (t : Fin cfg4.N) :
    (dat4 V c).flushed 3 t = ((cfg4.win 3).blk t).view.read (Elt Ideal) (affine (V c main_v72) (V c main_arg7) (V c main_v73)) := by
  show (cfg4.win 3).cut (grid4.coords t) ((dat4 V c).after 3 t) = _
  rw [after4_3]
  unfold out4_3
  rw [View.canon_unit_zero origin]
  simp only [View.ld_unit_zero (S := S128x64) origin, View.ld_unit_zero (S := S64x2) origin, View.ld_unit_zero (S := S1x2) origin]
  obtain ⟨e0, e1, e2, e3, e4, e5, e6, e7⟩ := index_facts t
  funext j
  obtain ⟨p, q, rfl⟩ : ∃ (p : Fin 128) (q : Fin 2), j = ix2 p q := ⟨j 0, j 1, eq_ix2 j⟩
  refine (stored_at _ _ _ p q).trans ?_
  show (∑ k : Fin 64, (V c main_v72 : S128x64.Idx → EReal) (((cfg4.win 0).blk t).view.emb (ix2 p k)) *ₑ (V c main_arg7 : S64x2.Idx → EReal) (((cfg4.win 1).blk t).view.emb (ix2 k q)))
      +ₑ (V c main_v73 : S1x2.Idx → EReal) (((cfg4.win 2).blk t).view.emb (ix2 (0 : Fin 1) q))
    = (∑ k : Fin 64, (V c main_v72 : S128x64.Idx → EReal) (ix2 (⟨((((cfg4.win 3).blk t).view.emb (ix2 p q)) 0).val, ((((cfg4.win 3).blk t).view.emb (ix2 p q)) 0).isLt⟩ : Fin 128) k)
          *ₑ (V c main_arg7 : S64x2.Idx → EReal) (ix2 k (⟨((((cfg4.win 3).blk t).view.emb (ix2 p q)) 1).val, ((((cfg4.win 3).blk t).view.emb (ix2 p q)) 1).isLt⟩ : Fin 2)))
      +ₑ (V c main_v73 : S1x2.Idx → EReal) (ix2 (0 : Fin 1) (⟨((((cfg4.win 3).blk t).view.emb (ix2 p q)) 1).val, ((((cfg4.win 3).blk t).view.emb (ix2 p q)) 1).isLt⟩ : Fin 2))
  have hp : p.val < 128 := p.isLt
  have hq : q.val < 2 := q.isLt
  have h2 : ((cfg4.win 2).blk t).view.emb (ix2 (0 : Fin 1) q)
      = ix2 (0 : Fin 1) (⟨((((cfg4.win 3).blk t).view.emb (ix2 p q)) 1).val, ((((cfg4.win 3).blk t).view.emb (ix2 p q)) 1).isLt⟩ : Fin 2) := by
    funext a; apply Fin.ext
    match a with
    | ⟨0, _⟩ => show win4_2.index t (0 : Fin 2) * 1 + 1 * 0 = 0; omega
    | ⟨1, _⟩ => show win4_2.index t (1 : Fin 2) * 2 + 1 * q.val = win4_3.index t (1 : Fin 2) * 2 + 1 * q.val; omega
  have h0 : ∀ k : Fin 64, ((cfg4.win 0).blk t).view.emb (ix2 p k)
      = ix2 (⟨((((cfg4.win 3).blk t).view.emb (ix2 p q)) 0).val, ((((cfg4.win 3).blk t).view.emb (ix2 p q)) 0).isLt⟩ : Fin 128) k := fun k => by
    have hkk : k.val < 64 := k.isLt
    funext a; apply Fin.ext
    match a with
    | ⟨0, _⟩ => show win4_0.index t (0 : Fin 2) * 128 + 1 * p.val = win4_3.index t (0 : Fin 2) * 128 + 1 * p.val; omega
    | ⟨1, _⟩ => show win4_0.index t (1 : Fin 2) * 64 + 1 * k.val = k.val; omega
  have h1 : ∀ k : Fin 64, ((cfg4.win 1).blk t).view.emb (ix2 k q)
      = ix2 k (⟨((((cfg4.win 3).blk t).view.emb (ix2 p q)) 1).val, ((((cfg4.win 3).blk t).view.emb (ix2 p q)) 1).isLt⟩ : Fin 2) := fun k => by
    have hkk : k.val < 64 := k.isLt
    funext a; apply Fin.ext
    match a with
    | ⟨0, _⟩ => show win4_1.index t (0 : Fin 2) * 64 + 1 * k.val = k.val; omega
    | ⟨1, _⟩ => show win4_1.index t (1 : Fin 2) * 2 + 1 * q.val = win4_3.index t (1 : Fin 2) * 2 + 1 * q.val; omega
  rw [h2]
  exact congrArg (fun s : EReal => s +ₑ _) (Finset.sum_congr rfl fun k _ => by rw [h0 k, h1 k])

/-- An index of the array is in the point's block iff each coordinate is in the block's range on its axis. -/
theorem mem_blk (t : Fin cfg4.N) (i : S128x2.Idx) :
    i ∈ ((cfg4.win 3).blk t).view.set ↔ ∀ a : Fin 2, win4_3.index t a * S128x2.size a ≤ (i a).val ∧ (i a).val < win4_3.index t a * S128x2.size a + S128x2.size a := by
  show i ∈ ((View.whole main_v74).slice (win4_3.rect t)).set ↔ _
  rw [View.set_slice_whole, Rect.mem_set_unit]
  exact Iff.rfl

/-- The one block is the whole array. -/
theorem covered (i : S128x2.Idx) :
    ∃ t : Fin cfg4.N, (cfg4.win 3).flush t = true ∧ i ∈ ((cfg4.win 3).blk t).view.set := by
  have hi0 : (i 0).val < 128 := (i 0).isLt
  have hi1 : (i 1).val < 2 := (i 1).isLt
  obtain ⟨e0, e1, e2, e3, e4, e5, e6, e7⟩ := index_facts t4_0
  refine ⟨t4_0, flush4_3 t4_0, ?_⟩
  rw [mem_blk]
  intro a
  match a with
  | ⟨0, _⟩ => show win4_3.index t4_0 (0 : Fin 2) * 128 ≤ (i 0).val ∧ (i 0).val < win4_3.index t4_0 (0 : Fin 2) * 128 + 128; omega
  | ⟨1, _⟩ => show win4_3.index t4_0 (1 : Fin 2) * 2 ≤ (i 1).val ∧ (i 1).val < win4_3.index t4_0 (1 : Fin 2) * 2 + 2; omega

/-- The array the region leaves: the pooled rows times the weights, plus the bias row. -/
theorem final (c : Dev nD) : (dat4 V c).arrAt 3 cfg4.N = affine (V c main_v72) (V c main_arg7) (V c main_v73) :=
  (dat4 V c).arrAt_eq_of_cover 3 _ (fun t _ => flushed_eq V c t) (covered)

end Cert.KernelIdeal.Head4

end
-- ==== Proof.Net.lean ====
/-
  The two-layer graph network the certificate is about, as one function of the nine argument arrays on the extended reals:
  node features times the first weights, aggregated over the normalised edges, plus the first bias, against zero; the same
  with the second weights and bias; the rows of each graph averaged; times the output weights, plus the output bias.
-/
import proofs.«167483_j16303695856042_1_alg».proof.Proof.Stage
import proofs.«167483_j16303695856042_1_alg».proof.Proof.Dense0
import proofs.«167483_j16303695856042_1_alg».proof.Proof.Act1
import proofs.«167483_j16303695856042_1_alg».proof.Proof.Dense2
import proofs.«167483_j16303695856042_1_alg».proof.Proof.Act3
import proofs.«167483_j16303695856042_1_alg».proof.Proof.Head4

noncomputable section

namespace Cert.KernelIdeal.Net

open Cert.KernelIdeal Cert.KernelIdeal.Stage Idealize.ShloMosaic

/-- The network, of node features, edge index, graph assignment, and the three layers' weights and biases. -/
def network (x : S100000x256.Idx → EReal) (e : (⟨S2x3200000, .i32⟩ : BufTy).Contents (Elt Ideal)) (batch : (⟨S100000, .i32⟩ : BufTy).Contents (Elt Ideal))
    (w1 : S256x64.Idx → EReal) (b1 : S64.Idx → EReal) (w2 : S64x64.Idx → EReal) (b2 : S64.Idx → EReal)
    (wo : S64x2.Idx → EReal) (bo : S2.Idx → EReal) : S128x2.Idx → EReal :=
  Head4.affine
    (pooled (F := Ideal)
      (Act3.biasMax
        (aggregate (F := Ideal)
          (Dense2.rowsTimes
            (Act1.biasMax (aggregate (F := Ideal) (Dense0.rowsTimes x w1) (srcOf (F := Ideal) e) (dstOf (F := Ideal) e) (edgeWeight (F := Ideal) (srcOf (F := Ideal) e) (dstOf (F := Ideal) e))) (biasRow (F := Ideal) b1))
            w2)
          (srcOf (F := Ideal) e) (dstOf (F := Ideal) e) (edgeWeight (F := Ideal) (srcOf (F := Ideal) e) (dstOf (F := Ideal) e)))
        (biasRow (F := Ideal) b2))
      batch)
    wo (outRow (F := Ideal) bo)

end Cert.KernelIdeal.Net

end
-- ==== Proof.Fold.lean ====
/-
  The idealized kernel's result as one function of its nine argument arrays.

  The memory at each boundary of the program is a fold from the launch memory. Reading it at the buffers that matter:
  the three stretches before the first region leave the edges' sources, destinations and weights, as the graph stages of the
  argument arrays; the stretch before each rectifier region leaves the layer's aggregate of the preceding region's product and
  the bias as a one-row matrix; the three stretches before the last region leave the pooled matrix and the output bias as a
  one-row matrix. A region leaves its output array at its whole-array function of the arrays it found, and every buffer that
  is not one of its arrays as it found it; a stretch leaves every buffer it does not write as it found it. Composed, the
  result array holds the two-layer network of the arguments.
-/
import proofs.«167483_j16303695856042_1_alg».proof.Proof.Gen.KernelIdeal.Frame
import proofs.«167483_j16303695856042_1_alg».proof.Proof.Kept
import proofs.«167483_j16303695856042_1_alg».proof.Proof.Graph
import proofs.«167483_j16303695856042_1_alg».proof.Proof.Layers
import proofs.«167483_j16303695856042_1_alg».proof.Proof.Stage
import proofs.«167483_j16303695856042_1_alg».proof.Proof.Dense0
import proofs.«167483_j16303695856042_1_alg».proof.Proof.Act1
import proofs.«167483_j16303695856042_1_alg».proof.Proof.Dense2
import proofs.«167483_j16303695856042_1_alg».proof.Proof.Act3
import proofs.«167483_j16303695856042_1_alg».proof.Proof.Head4
import proofs.«167483_j16303695856042_1_alg».proof.Proof.Net
import Idealize.ShloMosaic.Lib.StableHlo.Run

set_option maxRecDepth 16384

noncomputable section

namespace Cert.KernelIdeal.Fold

open Cert.KernelIdeal Cert.KernelIdeal.Facts₀ Cert.KernelIdeal.Gen Cert.KernelIdeal.Stage Cert.KernelIdeal.Net
open Cert.KernelIdeal.Kept Cert.KernelIdeal.Graph Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The regions' exits -/

/-- The first region leaves the product of the node features and the first weights. -/
theorem exit0 (c : Dev nD) : W4 m ρ c (Proc.devRef .tc main_v30)
    = Dense0.rowsTimes (W3 m ρ c (Proc.devRef .tc main_arg0)) (W3 m ρ c (Proc.devRef .tc main_arg3)) :=
  (W4_arr m ρ c 2).trans (Dense0.final (V3 m ρ) c)

/-- The second region leaves the first layer's activations. -/
theorem exit1 (c : Dev nD) : W6 m ρ c (Proc.devRef .tc main_v45)
    = Act1.biasMax (W5 m ρ c (Proc.devRef .tc main_v43)) (W5 m ρ c (Proc.devRef .tc main_v44)) :=
  (W6_arr m ρ c 2).trans (Act1.final (V5 m ρ) c)

/-- The third region leaves the product of the activations and the second weights. -/
theorem exit2 (c : Dev nD) : W7 m ρ c (Proc.devRef .tc main_v46)
    = Dense2.rowsTimes (W6 m ρ c (Proc.devRef .tc main_v45)) (W6 m ρ c (Proc.devRef .tc main_arg5)) :=
  (W7_arr m ρ c 2).trans (Dense2.final (V6 m ρ) c)

/-- The fourth region leaves the second layer's activations. -/
theorem exit3 (c : Dev nD) : W9 m ρ c (Proc.devRef .tc main_v61)
    = Act3.biasMax (W8 m ρ c (Proc.devRef .tc main_v59)) (W8 m ρ c (Proc.devRef .tc main_v60)) :=
  (W9_arr m ρ c 2).trans (Act3.final (V8 m ρ) c)

/-- The last region leaves the output layer of the pooled matrix. -/
theorem exit4 (c : Dev nD) : W13 m ρ c (Proc.devRef .tc main_v74)
    = Head4.affine (W12 m ρ c (Proc.devRef .tc main_v72)) (W12 m ρ c (Proc.devRef .tc main_arg7)) (W12 m ρ c (Proc.devRef .tc main_v73)) :=
  (W13_arr m ρ c 3).trans (Head4.final (V12 m ρ) c)

/-! ## The network -/

/-- The result array after the run is the network of the argument arrays as launched. -/
theorem result_eq (c : Dev nD) : W13 m ρ c (Proc.devRef .tc main_v74)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [exit4, pool, biasOut, arg7_at12, arg2_at9, arg8_at9, exit3, aggregate2, bias2, arg6_at7, v3_at7, v6_at7, v29_at7,
    exit2, arg5_at6, exit1, aggregate1, bias1, arg4_at4, v3_at4, v6_at4, v29_at4, exit0, arg0_at3, arg3_at3,
    sources, destinations, weights]
  rfl

end Cert.KernelIdeal.Fold

end
-- ==== Proof.RValue.lean ====
/-
  The reference's result is the network.

  Stage by stage, the reference's host program computes what the network's stages say: its graph vectors, aggregates and pool
  are the same compositions of the same operations; its three matrix products are, entry by entry, the sums over the
  contracted index that the network's products are; and its bias steps broadcast the bias vector over the rows where the
  network reads the bias as a one-row matrix: the same entry.
-/
import proofs.«167483_j16303695856042_1_alg».proof.Proof.RefRead
import proofs.«167483_j16303695856042_1_alg».proof.Proof.Net
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Bridge

open Cert.ReferenceIdeal Cert.ReferenceIdeal.Read
open Idealize.ShloMosaic Idealize.ShloMosaic.ValueIdx
open Cert.KernelIdeal.Stage (srcOf dstOf edgeWeight aggregate pooled biasRow outRow)

variable (x0 : (⟨S100000x256, .f32⟩ : BufTy).Contents (Elt Ideal)) (x1 : (⟨S2x3200000, .i32⟩ : BufTy).Contents (Elt Ideal)) (x2 : (⟨S100000, .i32⟩ : BufTy).Contents (Elt Ideal))
  (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x2, .f32⟩ : BufTy).Contents (Elt Ideal)) (x8 : (⟨S2, .f32⟩ : BufTy).Contents (Elt Ideal))

/-! ## The graph -/

set_option maxHeartbeats 1000000 in
theorem sources : val_main_v3 (F := Ideal) x1 = srcOf x1 := rfl
set_option maxHeartbeats 1000000 in
theorem destinations : val_main_v6 (F := Ideal) x1 = dstOf x1 := rfl
set_option maxHeartbeats 2000000 in
theorem weights : val_main_v29 (F := Ideal) x1 = edgeWeight (srcOf x1) (dstOf x1) := rfl

/-! ## The first layer -/

/-- The product of the node features and the first weights. -/
theorem product1 : val_main_v30 (F := Ideal) x0 x3 = Cert.KernelIdeal.Dense0.rowsTimes x0 x3 := by
  funext i
  rw [val_main_v30_apply]
  refine Finset.sum_congr rfl fun k _ => ?_
  have hl : lidx_main_v30 i k = ix2 (⟨(i 0).val, (i 0).isLt⟩ : Fin 100000) k := funext fun a => by match a with | ⟨0, _⟩ => rfl | ⟨1, _⟩ => rfl
  have hr : ridx_main_v30 i k = ix2 k (⟨(i 1).val, (i 1).isLt⟩ : Fin 64) := funext fun a => by match a with | ⟨0, _⟩ => rfl | ⟨1, _⟩ => rfl
  rw [hl, hr]

set_option maxHeartbeats 2000000 in
/-- Its aggregate over the edges. -/
theorem aggregate1 : val_main_v43 (F := Ideal) x0 x1 x3
    = aggregate (val_main_v30 (F := Ideal) x0 x3) (val_main_v3 (F := Ideal) x1) (val_main_v6 (F := Ideal) x1) (val_main_v29 (F := Ideal) x1) := rfl

/-- The bias vector broadcast over the rows is the one-row bias matrix read at its row. -/
theorem bias_entry (b : (⟨S64, .f32⟩ : BufTy).Contents (Elt Ideal)) (i : S100000x64.Idx) :
    b (idx_main_v44 (idx_main_v45 i)) = biasRow b (ix2 (0 : Fin 1) (⟨(i 1).val, (i 1).isLt⟩ : Fin 64)) := by
  unfold biasRow
  rw [shapeCast_a_1a_apply]
  exact congrArg b (funext fun a => by match a with | ⟨0, _⟩ => rfl)

/-- The bias added and the maximum with zero taken. -/
theorem activation1 : val_main_v47 (F := Ideal) x0 x1 x3 x4 = Cert.KernelIdeal.Act1.biasMax (val_main_v43 (F := Ideal) x0 x1 x3) (biasRow x4) := by
  funext i
  rw [val_main_v47_apply, val_main_v46_apply, val_main_v45_apply, val_main_v44_apply, val_main_call1_v0_apply, val_main_call1_cst_apply, bias_entry x4 i]
  rfl

/-! ## The second layer -/

theorem product2 : val_main_v48 (F := Ideal) x0 x1 x3 x4 x5 = Cert.KernelIdeal.Dense2.rowsTimes (val_main_v47 (F := Ideal) x0 x1 x3 x4) x5 := by
  funext i
  rw [val_main_v48_apply]
  refine Finset.sum_congr rfl fun k _ => ?_
  have hl : lidx_main_v48 i k = ix2 (⟨(i 0).val, (i 0).isLt⟩ : Fin 100000) k := funext fun a => by match a with | ⟨0, _⟩ => rfl | ⟨1, _⟩ => rfl
  have hr : ridx_main_v48 i k = ix2 k (⟨(i 1).val, (i 1).isLt⟩ : Fin 64) := funext fun a => by match a with | ⟨0, _⟩ => rfl | ⟨1, _⟩ => rfl
  rw [hl, hr]

set_option maxHeartbeats 2000000 in
theorem aggregate2 : val_main_v61 (F := Ideal) x0 x1 x3 x4 x5
    = aggregate (val_main_v48 (F := Ideal) x0 x1 x3 x4 x5) (val_main_v3 (F := Ideal) x1) (val_main_v6 (F := Ideal) x1) (val_main_v29 (F := Ideal) x1) := rfl

theorem bias_entry2 (b : (⟨S64, .f32⟩ : BufTy).Contents (Elt Ideal)) (i : S100000x64.Idx) :
    b (idx_main_v62 (idx_main_v63 i)) = biasRow b (ix2 (0 : Fin 1) (⟨(i 1).val, (i 1).isLt⟩ : Fin 64)) := by
  unfold biasRow
  rw [shapeCast_a_1a_apply]
  exact congrArg b (funext fun a => by match a with | ⟨0, _⟩ => rfl)

theorem activation2 : val_main_v65 (F := Ideal) x0 x1 x3 x4 x5 x6 = Cert.KernelIdeal.Act3.biasMax (val_main_v61 (F := Ideal) x0 x1 x3 x4 x5) (biasRow x6) := by
  funext i
  rw [val_main_v65_apply, val_main_v64_apply, val_main_v63_apply, val_main_v62_apply, val_main_call2_v0_apply, val_main_call2_cst_apply, bias_entry2 x6 i]
  rfl

/-! ## The pool and the output layer -/

set_option maxHeartbeats 2000000 in
theorem pool : val_main_v76 (F := Ideal) x0 x1 x2 x3 x4 x5 x6 = pooled (val_main_v65 (F := Ideal) x0 x1 x3 x4 x5 x6) x2 := rfl

theorem bias_entry3 (b : (⟨S2, .f32⟩ : BufTy).Contents (Elt Ideal)) (i : S128x2.Idx) :
    b (idx_main_v78 (idx_main_v79 i)) = outRow b (ix2 (0 : Fin 1) (⟨(i 1).val, (i 1).isLt⟩ : Fin 2)) := by
  unfold outRow
  rw [shapeCast_a_1a_apply]
  exact congrArg b (funext fun a => by match a with | ⟨0, _⟩ => rfl)

theorem output : val_main_v80 (F := Ideal) x0 x1 x2 x3 x4 x5 x6 x7 x8
    = Cert.KernelIdeal.Head4.affine (val_main_v76 (F := Ideal) x0 x1 x2 x3 x4 x5 x6) x7 (outRow x8) := by
  funext i
  rw [val_main_v80_apply, val_main_v77_apply, val_main_v79_apply, val_main_v78_apply, bias_entry3 x8 i]
  unfold Cert.KernelIdeal.Head4.affine
  refine congrArg (· + outRow x8 (ix2 (0 : Fin 1) (⟨(i 1).val, (i 1).isLt⟩ : Fin 2))) (Finset.sum_congr rfl fun k _ => ?_)
  have hl : lidx_main_v77 i k = ix2 (⟨(i 0).val, (i 0).isLt⟩ : Fin 128) k := funext fun a => by match a with | ⟨0, _⟩ => rfl | ⟨1, _⟩ => rfl
  have hr : ridx_main_v77 i k = ix2 k (⟨(i 1).val, (i 1).isLt⟩ : Fin 2) := funext fun a => by match a with | ⟨0, _⟩ => rfl | ⟨1, _⟩ => rfl
  rw [hl, hr]

/-! ## The whole -/

/-- The reference's result, of the nine arguments, is the network of them. -/
theorem result_eq : val_main_v80 (F := Ideal) x0 x1 x2 x3 x4 x5 x6 x7 x8 = Cert.KernelIdeal.Net.network x0 x1 x2 x3 x4 x5 x6 x7 x8 := by
  rw [output, pool, activation2, aggregate2, product2, activation1, aggregate1, product1, sources, destinations, weights]
  rfl

end Cert.ReferenceIdeal.Bridge

end
-- ==== Proof.lean ====
/-
  A two-layer graph convolution with mean pooling and a linear output: the tiled kernel against the plain reference.

  Both programs compute, on the extended reals, one function of the nine argument arrays (Proof/Net.lean): node features times
  the first weights, aggregated over the degree-normalised edges, plus bias, against zero; the same again; each graph's rows
  averaged; times the output weights, plus the output bias. The kernel does the three products and the two bias-and-maximum
  steps in pipelined regions over blocks of 10000 rows, and everything that indexes by the graph on the host; the reference
  does all of it on the host.
  - The kernel's side. Each region leaves its output array at one function of the whole arrays it found, because its blocks
    tile the array and a block's entry depends only on the matching rows (Proof/Dense0, Act1, Dense2, Act3, Head4); a product
    into a zero accumulator is the plain sum over the contracted index, and a change of float format is the identity. The host
    stretches between the regions are read as the graph stages of Proof/Stage.lean, and the buffers a later stretch reads
    come through the regions and stretches in between unchanged (Proof/Fold.lean). The run itself, with the result array
    named, is Proof/KRun.lean.
  - The reference's side. Its run leaves the composed term of its host operations (Proof/RefRun.lean), which stage by stage is
    the same network (Proof/RValue.lean over Proof/RefRead.lean): the host's dot_general is the same sum, and a bias vector
    broadcast over the rows is the one-row bias matrix read at its row.
  No law used needs the entries to be finite, so the precondition is never opened. The kernel's idealization rewrote no
  operation, so there is nothing to preserve.
-/
import proofs.«167483_j16303695856042_1_alg».proof.Defs
import proofs.«167483_j16303695856042_1_alg».proof.Proof.Gen.Kernel
import proofs.«167483_j16303695856042_1_alg».proof.Proof.Gen.Kernel.Skeleton
import proofs.«167483_j16303695856042_1_alg».proof.Proof.Gen.Kernel.Launch
import proofs.«167483_j16303695856042_1_alg».proof.Proof.Gen.Kernel.Points
import proofs.«167483_j16303695856042_1_alg».proof.Proof.Gen.Kernel.Frame
import proofs.«167483_j16303695856042_1_alg».proof.Proof.Gen.KernelIdeal
import proofs.«167483_j16303695856042_1_alg».proof.Proof.Gen.KernelIdeal.Skeleton
import proofs.«167483_j16303695856042_1_alg».proof.Proof.Gen.KernelIdeal.Launch
import proofs.«167483_j16303695856042_1_alg».proof.Proof.Gen.KernelIdeal.Points
import proofs.«167483_j16303695856042_1_alg».proof.Proof.Gen.KernelIdeal.Frame
import proofs.«167483_j16303695856042_1_alg».proof.Proof.Gen.ReferenceIdeal
import proofs.«167483_j16303695856042_1_alg».proof.Proof.Gen.Pre_finite_inputs
import proofs.«167483_j16303695856042_1_alg».proof.Proof.KRun
import proofs.«167483_j16303695856042_1_alg».proof.Proof.Fold
import proofs.«167483_j16303695856042_1_alg».proof.Proof.RefRun
import proofs.«167483_j16303695856042_1_alg».proof.Proof.RefRead
import proofs.«167483_j16303695856042_1_alg».proof.Proof.RValue
import Idealize.ShloMosaic.Adequacy
import Idealize.ShloMosaic.Init

noncomputable section

namespace Cert.Proof

open Idealize.ShloMosaic Idealize.SL.Sem

/-- From memories that agree on the nine arguments, the reference's result term is the array the kernel's fold ends with:
    both are the network of the arguments. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v80 m' c = Cert.KernelIdeal.Gen.W13 m ρ c (Proc.devRef .tc Cert.KernelIdeal.main_v74) := by
  obtain ⟨a0, a1, a2, a3, a4, a5, a6, a7, a8⟩ := h
  rw [Cert.ReferenceIdeal.Read.val_main_v80_eq, Cert.ReferenceIdeal.Bridge.result_eq, a0, a1, a2, a3, a4, a5, a6, a7, a8,
    Cert.KernelIdeal.Fold.result_eq]

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, both run and end with the same result array:
    the network of the arguments. -/
theorem algebraic : Cert.algebraic_KernelIdeal_ReferenceIdeal := by
  intro m ρ m' ρ' _ hagree
  refine ⟨fun c => Cert.KernelIdeal.Gen.W13 m ρ c (Proc.devRef .tc Cert.KernelIdeal.main_v74), Cert.KernelIdeal.Result.run_result m ρ, ?_⟩
  exact (θ_run Cert.ReferenceIdeal.defs _ _).mono (fun _ h c => ⟨(h c).1.trans (results_agree m ρ m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
